-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x56x56 : Shape := ⟨4, ![64, 512, 56, 56]⟩
abbrev S_ : Shape := ⟨0, ![]⟩

class Facts : Prop where
  bcast_S_S64x512x56x56 : S_.BroadcastsInDim S64x512x56x56 (![] : Fin 0 → Fin S64x512x56x56.rank)
  reducesTo_S64x512x56x56_S_d0_1_2_3 : S64x512x56x56.ReducesTo [0, 1, 2, 3] S_
  h_S_ : 0 < S_.numel

variable [Facts]

def fn {F : FTy → Type} [FloatOps F] (main_arg0 : FVec F S64x512x56x56 .f32) : IVec S_ 1 :=
  let main_v0 : FVec F S64x512x56x56 .f32 := Host.absf main_arg0
  let main_cst : FVec F S_ .f32 := constant S_ .f32 0x7F800000#32
  let main_v1 : FVec F S64x512x56x56 .f32 := broadcastInDim S64x512x56x56 ![] bcast_S_S64x512x56x56 main_cst
  let main_v2 : IVec S64x512x56x56 1 := cmpf .olt main_v0 main_v1
  let main_c : IVec S_ 1 := constantI S_ 1 1#1
  let main_v3 : IVec S_ 1 := (fun x v => Host.reduce IntOp.andi x v reducesTo_S64x512x56x56_S_d0_1_2_3 h_S_) main_v2 main_c
  main_v3
-- ==== Kernel.lean ====
abbrev S64x512x56x56 : Shape := ⟨4, ![64, 512, 56, 56]⟩
abbrev S64x512x3136 : Shape := ⟨3, ![64, 512, 3136]⟩
abbrev S1x512x3136 : Shape := ⟨3, ![1, 512, 3136]⟩
abbrev S1x512x392 : Shape := ⟨3, ![1, 512, 392]⟩
abbrev S512x392 : Shape := ⟨2, ![512, 392]⟩
abbrev S1x392 : Shape := ⟨2, ![1, 392]⟩
abbrev S511x392 : Shape := ⟨2, ![511, 392]⟩
abbrev S1x512x2352 : Shape := ⟨3, ![1, 512, 2352]⟩
abbrev S512x2352 : Shape := ⟨2, ![512, 2352]⟩

abbrev nBuf : Space → Nat
  | .hbm => 4
  | .vmem => 4
  | .smem => 0
  | _ => 0

abbrev bufTy : (tb : Table) → Fin (tcTables nBuf tb) → BufTy
  | .hbm, ⟨0, _⟩ => ⟨S64x512x56x56, .f32⟩
  | .hbm, ⟨1, _⟩ => ⟨S64x512x3136, .f32⟩
  | .hbm, ⟨2, _⟩ => ⟨S64x512x3136, .f32⟩
  | .hbm, ⟨3, _⟩ => ⟨S64x512x56x56, .f32⟩
  | .local _ .vmem, ⟨0, _⟩ => ⟨S1x512x3136, .f32⟩
  | .local _ .vmem, ⟨1, _⟩ => ⟨S1x512x3136, .f32⟩
  | .local _ .vmem, ⟨2, _⟩ => ⟨S1x512x3136, .f32⟩
  | .local _ .vmem, ⟨3, _⟩ => ⟨S1x512x3136, .f32⟩
  | _, _ => ⟨S64x512x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3136 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x3136 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x56x56_S64x512x3136 : S64x512x56x56.ShapeCasts S64x512x3136
  inb_S1x512x3136_S1x512x392_0_0_0 : ∀ a, (![0, 0, 0] : Fin 3 → Nat) a + S1x512x392.size a ≤ S1x512x3136.size a
  h_S1x512x392 : 0 < S1x512x392.numel
  shapeCasts_S1x512x392_S512x392 : S1x512x392.ShapeCasts S512x392
  slices_S512x392_o1_0_S511x392 : S512x392.Slices ![1, 0] S511x392
  concatenates_S511x392_S1x392_S512x392_d0 : Shape.Concatenates [S511x392, S1x392] S512x392 0
  shapeCasts_S512x392_S1x512x392 : S512x392.ShapeCasts S1x512x392
  inb_S1x512x3136_S1x512x392_0_0_392 : ∀ a, (![0, 0, 392] : Fin 3 → Nat) a + S1x512x392.size a ≤ S1x512x3136.size a
  slices_S512x392_o0_0_S511x392 : S512x392.Slices ![0, 0] S511x392
  concatenates_S1x392_S511x392_S512x392_d0 : Shape.Concatenates [S1x392, S511x392] S512x392 0
  inb_S1x512x3136_S1x512x2352_0_0_784 : ∀ a, (![0, 0, 784] : Fin 3 → Nat) a + S1x512x2352.size a ≤ S1x512x3136.size a
  h_S1x512x2352 : 0 < S1x512x2352.numel
  shapeCasts_S1x512x2352_S512x2352 : S1x512x2352.ShapeCasts S512x2352
  shapeCasts_S512x2352_S1x512x2352 : S512x2352.ShapeCasts S1x512x2352
  shapeCasts_S64x512x3136_S64x512x56x56 : S64x512x3136.ShapeCasts S64x512x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3136.size a ≤ S64x512x3136.size a
  hwx0_0 : ∀ i : grid0.Coords, EltTy.bits .f32 = 32 ∨ (Rect.block (s := S64x512x3136) S1x512x3136.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3136.size a ≤ S64x512x3136.size a
  hwx0_1 : ∀ i : grid0.Coords, EltTy.bits .f32 = 32 ∨ (Rect.block (s := S64x512x3136) S1x512x3136.size (cc0_transform_1 i) (hinb0_1 i)).WholeWords (EltTy.packing .f32)

variable [Facts₀]

abbrev win0_0 : Pipeline.Window sig grid0 :=
  Pipeline.Window.ofSpec (Memref.whole main_v0) S1x512x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x512x3136.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x56x56 : Shape := ⟨4, ![64, 512, 56, 56]⟩
abbrev S64x512x3136 : Shape := ⟨3, ![64, 512, 3136]⟩
abbrev S_ : Shape := ⟨0, ![]⟩
abbrev S64x1x392 : Shape := ⟨3, ![64, 1, 392]⟩
abbrev S64x511x392 : Shape := ⟨3, ![64, 511, 392]⟩
abbrev S64x512x392 : Shape := ⟨3, ![64, 512, 392]⟩
abbrev S64x512x2352 : Shape := ⟨3, ![64, 512, 2352]⟩

abbrev nBuf : Space → Nat
  | .hbm => 11
  | .vmem => 0
  | .smem => 0
  | _ => 0

abbrev bufTy : (tb : Table) → Fin (tcTables nBuf tb) → BufTy
  | .hbm, ⟨0, _⟩ => ⟨S64x512x56x56, .f32⟩
  | .hbm, ⟨1, _⟩ => ⟨S64x512x3136, .f32⟩
  | .hbm, ⟨2, _⟩ => ⟨S_, .f32⟩
  | .hbm, ⟨3, _⟩ => ⟨S64x1x392, .f32⟩
  | .hbm, ⟨4, _⟩ => ⟨S64x511x392, .f32⟩
  | .hbm, ⟨5, _⟩ => ⟨S64x512x392, .f32⟩
  | .hbm, ⟨6, _⟩ => ⟨S64x511x392, .f32⟩
  | .hbm, ⟨7, _⟩ => ⟨S64x512x392, .f32⟩
  | .hbm, ⟨8, _⟩ => ⟨S64x512x2352, .f32⟩
  | .hbm, ⟨9, _⟩ => ⟨S64x512x3136, .f32⟩
  | .hbm, ⟨10, _⟩ => ⟨S64x512x56x56, .f32⟩
  | _, _ => ⟨S64x512x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]

class Facts₀ : Prop where
  shapeCasts_S64x512x56x56_S64x512x3136 : S64x512x56x56.ShapeCasts S64x512x3136
  bcast_S_S64x1x392 : S_.BroadcastsInDim S64x1x392 (![] : Fin 0 → Fin S64x1x392.rank)
  slices_S64x512x3136_S64x511x392_0_1_0 : S64x512x3136.Slices ![0, 1, 0] S64x511x392
  concatenates_S64x511x392_S64x1x392_S64x512x392_d1 : Shape.Concatenates [S64x511x392, S64x1x392] S64x512x392 1
  slices_S64x512x3136_S64x511x392_0_0_392 : S64x512x3136.Slices ![0, 0, 392] S64x511x392
  concatenates_S64x1x392_S64x511x392_S64x512x392_d1 : Shape.Concatenates [S64x1x392, S64x511x392] S64x512x392 1
  slices_S64x512x3136_S64x512x2352_0_0_784 : S64x512x3136.Slices ![0, 0, 784] S64x512x2352
  concatenates_S64x512x392_S64x512x392_S64x512x2352_S64x512x3136_d2 : Shape.Concatenates [S64x512x392, S64x512x392, S64x512x2352] S64x512x3136 2
  shapeCasts_S64x512x3136_S64x512x56x56 : S64x512x3136.ShapeCasts S64x512x56x56

variable [Facts₀]

class Facts : Prop extends Facts₀ where

variable [Facts]
-- ==== Proof.Payloads.lean ====
/-
  The kernel body's three stored values, read at an index.

  The body handles one image: a block of 512 channels over 3136 positions behind a leading axis of extent one. It
  stores three values. For positions 0..391 it drops the block's unit axis, takes channels 1..511, appends a row of
  zeros below them and restores the unit axis: at channel `t` this reads channel `t + 1` of what was loaded, and the zero
  row at channel 511. For positions 392..783 it puts the row of zeros above channels 0..510: at channel `t` this reads
  channel `t - 1`, and the zero row at channel 0. For the remaining positions it drops and restores the unit axis,
  which changes nothing.
-/
import proofs.«145419_j80075370267210_2_alg».proof.Proof.Gen.KernelIdeal.Skeleton
import Idealize.ShloMosaic.Lib.Pipeline.Value
import Idealize.ShloMosaic.Lib.ValueIdx

noncomputable section

namespace Cert.KernelIdeal.Body

open Cert.KernelIdeal Cert.KernelIdeal.Gen Idealize.ShloMosaic Idealize.ShloMosaic.ValueIdx

variable {F : FTy → Type} [FloatOps F]

/-- The fill value: the float whose word is zero. -/
abbrev fill : F .f32 := Scalar.ofBits .f32 0x00000000#32

/-- Restoring the unit axis: channel `t`, position `q` of the image is entry `(t, q)` of the matrix. -/
theorem addUnit_apply (v : FVec F S512x392 .f32) (u : Fin 1) (t : Fin 512) (q : Fin 392) :
    shapeCast S1x512x392 v shapeCasts_S512x392_S1x512x392 (ix3 u t q) = v (ix2 t q) :=
  shapeCast_apply v shapeCasts_S512x392_S1x512x392 (ix3 u t q) (ix2 t q) (by
    rw [Shape.rowMajor_val_two, Shape.rowMajor_val_three]
    have hu : u.val < 1 := u.isLt
    show t.val * 392 + q.val = (u.val * 512 + t.val) * 392 + q.val
    omega)

/-- Dropping the unit axis: entry `(t, q)` of the matrix is channel `t`, position `q` of the image. -/
theorem dropUnit_apply (v : Vec F S1x512x392 .f32) (t : Fin 512) (q : Fin 392) :
    shapeCast S512x392 v shapeCasts_S1x512x392_S512x392 (ix2 t q) = v (ix3 (0 : Fin 1) t q) :=
  shapeCast_apply v shapeCasts_S1x512x392_S512x392 (ix2 t q) (ix3 (0 : Fin 1) t q) (by
    rw [Shape.rowMajor_val_two, Shape.rowMajor_val_three]
    show (0 * 512 + t.val) * 392 + q.val = t.val * 392 + q.val
    omega)

/-- The row of zeros reads the fill value. -/
theorem zeroRow_apply (j : S1x392.Idx) : k0_pay1 (F := F) j = fill := rfl

/-- First band, below the last channel: the next channel of what was loaded. -/
theorem band1_next (v : Vec F S1x512x392 .f32) (u : Fin 1) (t : Fin 512) (q : Fin 392) (ht : t.val + 1 < 512) :
    k0_pay2 v (ix3 u t q) = v (ix3 (0 : Fin 1) ⟨t.val + 1, ht⟩ q) := by
  unfold k0_pay2
  refine (addUnit_apply _ u t q).trans ?_
  refine (concatenate_pair_apply_left (s₁ := S511x392) (s₂ := S1x392) (0 : Fin 2) _ _
    concatenates_S511x392_S1x392_S512x392_d0 (ix2 t q) rfl (ix2 (⟨t.val, by omega⟩ : Fin 511) q) (fun a => match a with
      | ⟨0, _⟩ => rfl
      | ⟨1, _⟩ => rfl)).trans ?_
  refine (extractStridedSlice_apply ![1, 0] _ slices_S512x392_o1_0_S511x392 _ (ix2 (⟨t.val + 1, ht⟩ : Fin 512) q)
    (fun a => match a with
      | ⟨0, _⟩ => by show t.val + 1 = 1 + t.val; omega
      | ⟨1, _⟩ => by show q.val = 0 + q.val; omega)).trans ?_
  exact dropUnit_apply v _ q

/-- First band, at the last channel: the fill value. -/
theorem band1_fill (v : Vec F S1x512x392 .f32) (u : Fin 1) (t : Fin 512) (q : Fin 392) (ht : ¬ t.val + 1 < 512) :
    k0_pay2 v (ix3 u t q) = fill := by
  unfold k0_pay2
  have htv : t.val = 511 := by have := t.isLt; omega
  refine (addUnit_apply _ u t q).trans ?_
  refine (concatenate_pair_apply_right (s₁ := S511x392) (s₂ := S1x392) (0 : Fin 2) _ _
    concatenates_S511x392_S1x392_S512x392_d0 (ix2 t q) rfl rfl (ix2 (0 : Fin 1) q) (fun a ha => match a with
      | ⟨0, _⟩ => absurd rfl ha
      | ⟨1, _⟩ => rfl) (by show 0 + 511 = t.val; omega)).trans ?_
  exact zeroRow_apply _

/-- Second band, above the first channel: the previous channel of what was loaded. -/
theorem band2_prev (v : Vec F S1x512x392 .f32) (u : Fin 1) (t : Fin 512) (q : Fin 392) (ht : 0 < t.val) :
    k0_pay3 v (ix3 u t q) = v (ix3 (0 : Fin 1) ⟨t.val - 1, by have := t.isLt; omega⟩ q) := by
  unfold k0_pay3
  refine (addUnit_apply _ u t q).trans ?_
  refine (concatenate_pair_apply_right (s₁ := S1x392) (s₂ := S511x392) (0 : Fin 2) _ _
    concatenates_S1x392_S511x392_S512x392_d0 (ix2 t q) rfl rfl (ix2 (⟨t.val - 1, by have := t.isLt; omega⟩ : Fin 511) q)
    (fun a ha => match a with
      | ⟨0, _⟩ => absurd rfl ha
      | ⟨1, _⟩ => rfl) (by show t.val - 1 + 1 = t.val; omega)).trans ?_
  refine (extractStridedSlice_apply ![0, 0] _ slices_S512x392_o0_0_S511x392 _
    (ix2 (⟨t.val - 1, by have := t.isLt; omega⟩ : Fin 512) q)
    (fun a => match a with
      | ⟨0, _⟩ => by show t.val - 1 = 0 + (t.val - 1); omega
      | ⟨1, _⟩ => by show q.val = 0 + q.val; omega)).trans ?_
  exact dropUnit_apply v _ q

/-- Second band, at the first channel: the fill value. -/
theorem band2_fill (v : Vec F S1x512x392 .f32) (u : Fin 1) (t : Fin 512) (q : Fin 392) (ht : ¬ 0 < t.val) :
    k0_pay3 v (ix3 u t q) = fill := by
  unfold k0_pay3
  refine (addUnit_apply _ u t q).trans ?_
  refine (concatenate_pair_apply_left (s₁ := S1x392) (s₂ := S511x392) (0 : Fin 2) _ _
    concatenates_S1x392_S511x392_S512x392_d0 (ix2 t q) rfl (ix2 (0 : Fin 1) q) (fun a => match a with
      | ⟨0, _⟩ => by show 0 = t.val; omega
      | ⟨1, _⟩ => rfl)).trans ?_
  exact zeroRow_apply _

/-- The remaining positions: dropping and restoring the unit axis changes nothing. -/
theorem band3_keep (v : Vec F S1x512x2352 .f32) : k0_pay4 v = v := by
  unfold k0_pay4
  exact shapeCast_shapeCast v _ _

end Cert.KernelIdeal.Body

end
-- ==== Proof.Shift.lean ====
/-
  The channel shift, as one rule.

  The input is read as 64 images of 512 channels over 3136 = 56·56 flattened positions. At channel `t` and position `p`:
  the first 392 positions take the NEXT channel's value (the last channel has none and takes the fill value), the
  following 392 positions take the PREVIOUS channel's value (the first channel takes the fill value), and every later
  position keeps its own. The rule is stated once over a function `get` that fetches a channel and a position of one
  image, and then read over the whole array (image `i 0`) and over one image's block (whose leading axis has the
  single coordinate `i 0`): a block of the shifted array is the shift of the block.
-/
import Idealize.ShloMosaic.Lib.ValueIdx

namespace Cert.ChannelShift

open Idealize.ShloMosaic Idealize.ShloMosaic.ValueIdx

variable {α : Type}

/-- One image's shifted value at channel `t`, position `p`, from the image's values `get` and the fill value `z`. -/
def rule (z : α) (get : Fin 512 → Fin 3136 → α) (t : Fin 512) (p : Fin 3136) : α :=
  if p.val < 392 then (if h : t.val + 1 < 512 then get ⟨t.val + 1, h⟩ p else z)
  else if p.val < 784 then (if 0 < t.val then get ⟨t.val - 1, by have := t.isLt; omega⟩ p else z)
  else get t p

/-- The shift of the whole array of 64 images. -/
def onArray (z : α) (x : (⟨3, ![64, 512, 3136]⟩ : Shape).Idx → α) : (⟨3, ![64, 512, 3136]⟩ : Shape).Idx → α :=
  fun i => rule z (fun t p => x (ix3 (n0 := 64) (i 0) t p)) (i 1) (i 2)

/-- The shift of one image's block. -/
def onBlock (z : α) (x : (⟨3, ![1, 512, 3136]⟩ : Shape).Idx → α) : (⟨3, ![1, 512, 3136]⟩ : Shape).Idx → α :=
  fun i => rule z (fun t p => x (ix3 (n0 := 1) (i 0) t p)) (i 1) (i 2)

/-- In the first band and below the last channel, the rule reads the next channel. -/
theorem rule_next (z : α) (get : Fin 512 → Fin 3136 → α) (t : Fin 512) (p : Fin 3136) (hp : p.val < 392)
    (ht : t.val + 1 < 512) : rule z get t p = get ⟨t.val + 1, ht⟩ p := by
  unfold rule; rw [if_pos hp, dif_pos ht]

/-- In the first band at the last channel, the rule gives the fill value. -/
theorem rule_next_fill (z : α) (get : Fin 512 → Fin 3136 → α) (t : Fin 512) (p : Fin 3136) (hp : p.val < 392)
    (ht : ¬ t.val + 1 < 512) : rule z get t p = z := by
  unfold rule; rw [if_pos hp, dif_neg ht]

/-- In the second band and above the first channel, the rule reads the previous channel. -/
theorem rule_prev (z : α) (get : Fin 512 → Fin 3136 → α) (t : Fin 512) (p : Fin 3136) (hp : ¬ p.val < 392)
    (hp' : p.val < 784) (ht : 0 < t.val) :
    rule z get t p = get ⟨t.val - 1, by have := t.isLt; omega⟩ p := by
  unfold rule; rw [if_neg hp, if_pos hp', if_pos ht]

/-- In the second band at the first channel, the rule gives the fill value. -/
theorem rule_prev_fill (z : α) (get : Fin 512 → Fin 3136 → α) (t : Fin 512) (p : Fin 3136) (hp : ¬ p.val < 392)
    (hp' : p.val < 784) (ht : ¬ 0 < t.val) : rule z get t p = z := by
  unfold rule; rw [if_neg hp, if_pos hp', if_neg ht]

/-- Past both bands the rule keeps the value. -/
theorem rule_keep (z : α) (get : Fin 512 → Fin 3136 → α) (t : Fin 512) (p : Fin 3136) (hp : ¬ p.val < 784) :
    rule z get t p = get t p := by
  unfold rule; rw [if_neg (by omega), if_neg hp]

/-- The block shift at an index whose channel is `t` and whose position is `p` (a block has one image). -/
theorem onBlock_at (z : α) (x : (⟨3, ![1, 512, 3136]⟩ : Shape).Idx → α) (i : (⟨3, ![1, 512, 3136]⟩ : Shape).Idx)
    (t : Fin 512) (p : Fin 3136) (h1 : (i 1).val = t.val) (h2 : (i 2).val = p.val) :
    onBlock z x i = rule z (fun t' p' => x (ix3 (0 : Fin 1) t' p')) t p := by
  have h0 : (i 0).val < 1 := (i 0).isLt
  have e0 : i 0 = (0 : Fin 1) := Fin.ext (by show (i 0).val = 0; omega)
  have e1 : i 1 = t := Fin.ext h1
  have e2 : i 2 = p := Fin.ext h2
  unfold onBlock
  rw [e0, e1, e2]

/-- The array shift at an index whose image is `b`, channel `t` and position `p`. -/
theorem onArray_at (z : α) (x : (⟨3, ![64, 512, 3136]⟩ : Shape).Idx → α) (i : (⟨3, ![64, 512, 3136]⟩ : Shape).Idx)
    (b : Fin 64) (t : Fin 512) (p : Fin 3136) (h0 : (i 0).val = b.val) (h1 : (i 1).val = t.val) (h2 : (i 2).val = p.val) :
    onArray z x i = rule z (fun t' p' => x (ix3 b t' p')) t p := by
  have e0 : i 0 = b := Fin.ext h0
  have e1 : i 1 = t := Fin.ext h1
  have e2 : i 2 = p := Fin.ext h2
  unfold onArray
  rw [e0, e1, e2]

/-- A block that holds image `n` of an array shifts to the block of the shifted array: at a block index and an array
    index with image `n` and the same channel and position, the two shifts agree. -/
theorem block_of_array (z : α) (X : (⟨3, ![64, 512, 3136]⟩ : Shape).Idx → α) (B : (⟨3, ![1, 512, 3136]⟩ : Shape).Idx → α)
    (n : Fin 64) (hB : ∀ y, B y = X (ix3 n (y 1) (y 2)))
    (j : (⟨3, ![1, 512, 3136]⟩ : Shape).Idx) (i : (⟨3, ![64, 512, 3136]⟩ : Shape).Idx)
    (hi0 : (i 0).val = n.val) (hi1 : (i 1).val = (j 1).val) (hi2 : (i 2).val = (j 2).val) :
    onBlock z B j = onArray z X i := by
  rw [onBlock_at z B j (j 1) (j 2) rfl rfl, onArray_at z X i n (j 1) (j 2) hi0 hi1 hi2]
  have e : (fun (t' : Fin 512) (p' : Fin 3136) => B (ix3 (0 : Fin 1) t' p')) = fun t' p' => X (ix3 n t' p') :=
    funext fun t' => funext fun p' => hB _
  rw [e]

end Cert.ChannelShift
-- ==== Proof.Block.lean ====
/-
  What the kernel body leaves in its output block: the channel shift of its input block.

  The body's three stores write three rectangles of the output block — positions 0..391, 392..783 and 784..3135, each
  over all 512 channels — and together they cover it. Each stored value, read at an index of its rectangle, is the
  block shift at that index of the block: the first reads the next channel (or the fill value at the last channel),
  the second the previous channel (or the fill value at the first), the third the value itself. Pieces that all
  restrict one function of the block index, and cover the block, leave that function.
-/
import proofs.«145419_j80075370267210_2_alg».proof.Proof.Gen.KernelIdeal.Frame
import proofs.«145419_j80075370267210_2_alg».proof.Proof.Payloads
import proofs.«145419_j80075370267210_2_alg».proof.Proof.Shift
import Idealize.ShloMosaic.Lib.Pipeline.Value
import Idealize.ShloMosaic.Lib.Tactic

set_option maxRecDepth 16384

noncomputable section

namespace Cert.KernelIdeal.Block

open Cert.KernelIdeal Cert.KernelIdeal.Gen Idealize.ShloMosaic Idealize.ShloMosaic.TcCoe Idealize.ShloMosaic.Tactic
open Idealize.SL.Sem Idealize.ShloMosaic.ValueIdx

variable {F : FTy → Type} [FloatOps F]

/-- The store over positions 0..391 restricts the block shift. -/
theorem piece1 (x0 : Vec F S1x512x3136 .f32)
    (inb : ∀ a, (![0, 0, 0] : Fin 3 → Nat) a + S1x512x392.size a ≤ S1x512x3136.size a) (y : S1x512x392.Idx) :
    k0_pay2 (View.ld x0 (Rect.unit (s := S1x512x3136) ![0, 0, 0] S1x512x392.size inb)) y
      = Cert.ChannelShift.onBlock (Body.fill (F := F)) x0 ((Rect.unit (s := S1x512x3136) ![0, 0, 0] S1x512x392.size inb).emb y) := by
  obtain ⟨u, t, q, rfl⟩ : ∃ (u : Fin 1) (t : Fin 512) (q : Fin 392), y = ix3 u t q := ⟨y 0, y 1, y 2, eq_ix3 y⟩
  have hq : q.val < 392 := q.isLt
  rw [Cert.ChannelShift.onBlock_at Body.fill x0 _ t ⟨q.val, by omega⟩
    (by show 0 + 1 * t.val = t.val; omega) (by show 0 + 1 * q.val = q.val; omega)]
  by_cases ht : t.val + 1 < 512
  · rw [Body.band1_next _ u t q ht, Cert.ChannelShift.rule_next _ _ t _ hq ht]
    refine congrArg x0 (funext fun a => Fin.ext ?_)
    match a with
    | ⟨0, _⟩ => rfl
    | ⟨1, _⟩ => show 0 + 1 * (t.val + 1) = t.val + 1; omega
    | ⟨2, _⟩ => show 0 + 1 * q.val = q.val; omega
  · rw [Body.band1_fill _ u t q ht, Cert.ChannelShift.rule_next_fill _ _ t _ hq ht]

/-- The store over positions 392..783 restricts the block shift. -/
theorem piece2 (x0 : Vec F S1x512x3136 .f32)
    (inb : ∀ a, (![0, 0, 392] : Fin 3 → Nat) a + S1x512x392.size a ≤ S1x512x3136.size a) (y : S1x512x392.Idx) :
    k0_pay3 (View.ld x0 (Rect.unit (s := S1x512x3136) ![0, 0, 392] S1x512x392.size inb)) y
      = Cert.ChannelShift.onBlock (Body.fill (F := F)) x0 ((Rect.unit (s := S1x512x3136) ![0, 0, 392] S1x512x392.size inb).emb y) := by
  obtain ⟨u, t, q, rfl⟩ : ∃ (u : Fin 1) (t : Fin 512) (q : Fin 392), y = ix3 u t q := ⟨y 0, y 1, y 2, eq_ix3 y⟩
  have hq : q.val < 392 := q.isLt
  rw [Cert.ChannelShift.onBlock_at Body.fill x0 _ t ⟨392 + q.val, by omega⟩
    (by show 0 + 1 * t.val = t.val; omega) (by show 392 + 1 * q.val = 392 + q.val; omega)]
  have hp : ¬ (392 + q.val) < 392 := by omega
  have hp' : 392 + q.val < 784 := by omega
  by_cases ht : 0 < t.val
  · rw [Body.band2_prev _ u t q ht, Cert.ChannelShift.rule_prev _ _ t _ hp hp' ht]
    refine congrArg x0 (funext fun a => Fin.ext ?_)
    match a with
    | ⟨0, _⟩ => rfl
    | ⟨1, _⟩ => show 0 + 1 * (t.val - 1) = t.val - 1; omega
    | ⟨2, _⟩ => show 392 + 1 * q.val = 392 + q.val; omega
  · rw [Body.band2_fill _ u t q ht, Cert.ChannelShift.rule_prev_fill _ _ t _ hp hp' ht]

/-- The store over positions 784..3135 restricts the block shift. -/
theorem piece3 (x0 : Vec F S1x512x3136 .f32)
    (inb : ∀ a, (![0, 0, 784] : Fin 3 → Nat) a + S1x512x2352.size a ≤ S1x512x3136.size a) (y : S1x512x2352.Idx) :
    k0_pay4 (View.ld x0 (Rect.unit (s := S1x512x3136) ![0, 0, 784] S1x512x2352.size inb)) y
      = Cert.ChannelShift.onBlock (Body.fill (F := F)) x0 ((Rect.unit (s := S1x512x3136) ![0, 0, 784] S1x512x2352.size inb).emb y) := by
  obtain ⟨u, t, q, rfl⟩ : ∃ (u : Fin 1) (t : Fin 512) (q : Fin 2352), y = ix3 u t q := ⟨y 0, y 1, y 2, eq_ix3 y⟩
  have hq : q.val < 2352 := q.isLt
  have hu : u.val < 1 := u.isLt
  rw [Cert.ChannelShift.onBlock_at Body.fill x0 _ t ⟨784 + q.val, by omega⟩
    (by show 0 + 1 * t.val = t.val; omega) (by show 784 + 1 * q.val = 784 + q.val; omega)]
  rw [Body.band3_keep, Cert.ChannelShift.rule_keep _ _ t _ (by show ¬ (784 + q.val) < 784; omega)]
  refine congrArg x0 (funext fun a => Fin.ext ?_)
  match a with
  | ⟨0, _⟩ => show 0 + 1 * u.val = 0; omega
  | ⟨1, _⟩ => show 0 + 1 * t.val = t.val; omega
  | ⟨2, _⟩ => show 784 + 1 * q.val = 784 + q.val; omega

/-- On any staging buffers, the body leaves the block shift of the input block in the output block. -/
theorem out_eq (c : Dev nD) (i : grid0.Coords) (a1 : Memref sig .tc .vmem S1x512x3136 .f32) (h1 : a1.IsWhole)
    (a2 : Memref sig .tc .vmem S1x512x3136 .f32) (h2 : a2.IsWhole) (x0 : Vec F S1x512x3136 .f32) :
    out0_A_1 c i a1 h1 a2 h2 x0 = Cert.ChannelShift.onBlock (Body.fill (F := F)) x0 := by
  unfold out0_A_1
  rw [View.read_writes_eq_canon _ _ _ (cover0_A_1 c i a1 h1 a2 h2 x0)]
  funext y
  refine View.canon_apply_of_pieces (Cert.ChannelShift.onBlock (Body.fill (F := F)) x0) _ ?_ y
    (cover0_A_1 c i a1 h1 a2 h2 x0 y)
  unfold kernelRun0_A
  dsimp only
  sl_unfold_words
  intro p hp x
  simp only [List.mem_cons, List.not_mem_nil, or_false] at hp
  rcases hp with rfl | rfl | rfl
  · simp only [View.readAt_eq_ld, h1.read_unread]
    exact piece3 x0 _ x
  · simp only [View.readAt_eq_ld, h1.read_unread]
    exact piece2 x0 _ x
  · simp only [View.readAt_eq_ld, h1.read_unread]
    exact piece1 x0 _ x

end Cert.KernelIdeal.Block

end
-- ==== Proof.Array.lean ====
/-
  The kernel's output array after the run: the channel shift of its input array.

  The grid has one point per image. Point `n` fetches image `n` of the input array as its input block and writes its
  output block back as image `n` of the output array: both windows' block index is `(n, 0, 0)` over blocks of one image.
  What the body leaves is the block shift of the input block, and a block holding image `n` of an array shifts to image
  `n` of the shifted array, so each point writes back a block of ONE function of the input array. Every index of the output
  array lies in the block of the point named by its image coordinate, so the array ends holding that function.
-/
import proofs.«145419_j80075370267210_2_alg».proof.Proof.Block
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ) (ρ : Dev nD → PrngReg)

/-- Both windows' block index at point `t` is `(t, 0, 0)`: decided over the 64 points. -/
theorem index_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- The shifted input array, as the region finds the input. -/
abbrev shifted (c : Dev nD) : S64x512x3136.Idx → Elt F .f32 :=
  Cert.ChannelShift.onArray (Body.fill (F := F)) (V m c main_v0)

/-- What point `t` writes back is block `t` of the shifted input array. -/
theorem flushed_eq (c : Dev nD) (t : Fin cfg0.N) :
    (dats m 0 c).flushed 1 t = ((cfg0.win 1).blk t).view.read (Elt F) (shifted m c) := by
  show (cfg0.win 1).cut (grid0.coords t) ((dats m 0 c).after 1 t) = _
  rw [after0_1]
  unfold outsAt0
  rw [Block.out_eq]
  obtain ⟨e00, e01, e02, e10, e11, e12⟩ := index_facts t
  have hN : cfg0.N = 64 := N_0
  have ht : t.val < 64 := by have := t.isLt; omega
  funext j
  show Cert.ChannelShift.onBlock (Body.fill (F := F)) (iblk m c 0 t) j
    = Cert.ChannelShift.onArray (Body.fill (F := F)) (V m c main_v0) (((cfg0.win 1).blk t).view.emb j)
  have hj0 : (j 0).val < 1 := (j 0).isLt
  refine Cert.ChannelShift.block_of_array (Body.fill (F := F)) (V m c main_v0) (iblk m c 0 t) ⟨t.val, ht⟩ (fun y => ?_)
    j (((cfg0.win 1).blk t).view.emb j) ?_ ?_ ?_
  · have hy0 : (y 0).val < 1 := (y 0).isLt
    unfold iblk
    show V m c main_v0 (((cfg0.win 0).blk t).view.emb y) = V m c main_v0 _
    refine congrArg (V m c main_v0) (funext fun a => Fin.ext ?_)
    match a with
    | ⟨0, _⟩ => show win0_0.index t (0 : Fin 3) * 1 + 1 * (y 0).val = t.val; omega
    | ⟨1, _⟩ => show win0_0.index t (1 : Fin 3) * 512 + 1 * (y 1).val = (y 1).val; omega
    | ⟨2, _⟩ => show win0_0.index t (2 : Fin 3) * 3136 + 1 * (y 2).val = (y 2).val; omega
  · show win0_1.index t (0 : Fin 3) * 1 + 1 * (j 0).val = t.val; omega
  · show win0_1.index t (1 : Fin 3) * 512 + 1 * (j 1).val = (j 1).val; omega
  · show win0_1.index t (2 : Fin 3) * 3136 + 1 * (j 2).val = (j 2).val; omega

/-- An index of the output array is in point `t`'s block iff each coordinate is in the block's range on its axis. -/
theorem mem_blk (t : Fin cfg0.N) (i : S64x512x3136.Idx) :
    i ∈ ((cfg0.win 1).blk t).view.set ↔ ∀ a : Fin 3, win0_1.index t a * S1x512x3136.size a ≤ (i a).val
      ∧ (i a).val < win0_1.index t a * S1x512x3136.size a + S1x512x3136.size a := by
  show i ∈ ((View.whole main_v1).slice (win0_1.rect t)).set ↔ _
  rw [View.set_slice_whole, Rect.mem_set_unit]
  exact Iff.rfl

/-- Every index of the output array is in the block of the point named by its image coordinate. -/
theorem covered (i : S64x512x3136.Idx) :
    ∃ t : Fin cfg0.N, (cfg0.win 1).flush t = true ∧ i ∈ ((cfg0.win 1).blk t).view.set := by
  have hN : cfg0.N = 64 := N_0
  have h0 : (i 0).val < 64 := (i 0).isLt
  have h1 : (i 1).val < 512 := (i 1).isLt
  have h2 : (i 2).val < 3136 := (i 2).isLt
  have hlt : (i 0).val < cfg0.N := by omega
  refine ⟨⟨(i 0).val, hlt⟩, flush0_1 _, ?_⟩
  obtain ⟨-, -, -, e10, e11, e12⟩ := index_facts ⟨(i 0).val, hlt⟩
  have e10' : win0_1.index ⟨(i 0).val, hlt⟩ (0 : Fin 3) = (i 0).val := e10
  rw [mem_blk]
  intro a
  match a with
  | ⟨0, _⟩ =>
    show win0_1.index ⟨(i 0).val, _⟩ (0 : Fin 3) * 1 ≤ (i 0).val ∧ (i 0).val < win0_1.index ⟨(i 0).val, _⟩ (0 : Fin 3) * 1 + 1
    rw [e10']; omega
  | ⟨1, _⟩ =>
    show win0_1.index ⟨(i 0).val, _⟩ (1 : Fin 3) * 512 ≤ (i 1).val ∧ (i 1).val < win0_1.index ⟨(i 0).val, _⟩ (1 : Fin 3) * 512 + 512
    rw [e11]; omega
  | ⟨2, _⟩ =>
    show win0_1.index ⟨(i 0).val, _⟩ (2 : Fin 3) * 3136 ≤ (i 2).val ∧ (i 2).val < win0_1.index ⟨(i 0).val, _⟩ (2 : Fin 3) * 3136 + 3136
    rw [e12]; omega

/-- The output array after the run is the shifted input array. -/
theorem final (c : Dev nD) : (dats m 0 c).arrAt 1 cfg0.N = shifted m c :=
  (dats m 0 c).arrAt_eq_of_cover 1 (shifted m c) (fun t _ => flushed_eq m c t) covered

end Cert.KernelIdeal.Whole

end
-- ==== Proof.KernelRun.lean ====
/-
  The kernel's run, read: its result is the reshape back of the channel shift of its reshaped argument.

  Around the region the program reshapes its argument to 64 images of 512 channels over 3136 positions, which is the
  array the region's input window reads, and reshapes the region's output array back to four axes, which is the
  result. The output array ends holding the channel shift of the input array, so the result is the reshape of the
  shift of the reshape of the argument; the argument is never written.
-/
import proofs.«145419_j80075370267210_2_alg».proof.Proof.Array
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo
open Idealize.ShloMosaic.Pipeline (Dat)

variable {F : FTy → Type} [FloatOps F]
variable (m : (ℓ : Loc nD τ sig) → Buf (Elt F) ℓ) (ρ : Dev nD → PrngReg)

/-- The region finds, as its input array, the reshaped argument. -/
theorem head_eq (c : Dev nD) : (V m c main_v0 : S64x512x3136.Idx → Elt F .f32)
    = shapeCast S64x512x3136 (m ((c : Thread nD τ).loc main_arg0)) shapeCasts_S64x512x56x56_S64x512x3136 := by
  show StableHlo.after hostOps0 (fun b => m (c, b)) (Proc.devRef .tc main_v0) = _
  after_results
  rfl

/-- The result is the reshape of the region's output array. -/
theorem tail_eq (c : Dev nD) :
    (Pipeline.afterTail₀ cfgs (dats m) 0 (V0 m) [hostOps1] c main_v2 : S64x512x56x56.Idx → Elt F .f32)
    = shapeCast S64x512x56x56 ((dats m 0 c).arrAt 1 cfg0.N) shapeCasts_S64x512x3136_S64x512x56x56 := by
  unfold Pipeline.afterTail₀
  show StableHlo.after hostOps1 _ (Proc.devRef .tc main_v2) = _
  after_results
  exact congrArg (fun v : S64x512x3136.Idx → Elt F .f32 => shapeCast S64x512x56x56 v shapeCasts_S64x512x3136_S64x512x56x56)
    (Pipeline.withArrays_arr (cfgs 0).spec launch0.win.arr_inj c (V0 m c) (fun w => (dats m 0 c).arrAt w (cfgs 0).N) 1)

/-- The result as a function of the argument. -/
abbrev result (x : S64x512x56x56.Idx → Elt F .f32) : S64x512x56x56.Idx → Elt F .f32 :=
  shapeCast S64x512x56x56 (Cert.ChannelShift.onArray (Body.fill (F := F))
    (shapeCast S64x512x3136 x shapeCasts_S64x512x56x56_S64x512x3136)) shapeCasts_S64x512x3136_S64x512x56x56

/-- Every weakly fair execution terminates with the result at that function of the argument and the argument unchanged. -/
theorem run : θ_run defs (onTc (τ := τ) (main (F := F))) ⟨m, fun _ => 0, ρ⟩ fun r => ∀ c : Dev nD,
      r.2.mem ((c : Thread nD τ).loc main_v2) = result (m ((c : Thread nD τ).loc main_arg0))
      ∧ r.2.mem ((c : Thread nD τ).loc main_arg0) = m ((c : Thread nD τ).loc main_arg0) :=
  (θ_run defs _ _).mono (fun r h c =>
      ⟨((h c).2 main_v2 (Pipeline.mem_restRefs_of main_v2 (by decide) (by decide))).trans
          ((tail_eq m c).trans (by rw [final m c]; unfold shifted; rw [head_eq m c])),
        ((h c).2 main_arg0 (Pipeline.mem_restRefs_of main_arg0 (by decide) (by decide))).trans (W_main_arg0 m (dats m) c)⟩)
    (run_main m ρ)

end Cert.KernelIdeal.Whole

end
-- ==== Proof.RefShift.lean ====
/-
  The reference computes the channel shift of its reshaped input.

  The reference builds its result from three bands joined along the position axis. The first band joins, along the
  channel axis, channels 1..511 of positions 0..391 with one row of zeros: at channel `t` it reads channel `t + 1`, and
  the zero row at channel 511. The second band joins one row of zeros with channels 0..510 of positions 392..783: at
  channel `t` it reads channel `t - 1` at position `392 + q`, and the zero row at channel 0. The third band is positions
  784..3135 unchanged. Read at an index, each join picks the operand whose span holds the coordinate on the joined
  axis, and each slice reads its operand at the index moved by the slice's offsets — which is the shift rule.
-/
import proofs.«145419_j80075370267210_2_alg».proof.Proof.Gen.ReferenceIdeal.Read
import proofs.«145419_j80075370267210_2_alg».proof.Proof.Shift
import Idealize.ShloMosaic.Lib.Pipeline.Value
import Idealize.ShloMosaic.Lib.ValueIdx

noncomputable section

namespace Cert.ReferenceIdeal.RefShift

open Cert.ReferenceIdeal Cert.ReferenceIdeal.Gen Cert.ReferenceIdeal.Read Idealize.ShloMosaic Idealize.ShloMosaic.ValueIdx

variable {F : FTy → Type} [FloatOps F]

/-- The fill value: the float whose word is zero. -/
abbrev fill : F .f32 := FloatOps.ofBits .f32 0x00000000#32

/-- The row of zeros reads the fill value everywhere. -/
theorem zeros_apply (i : S64x1x392.Idx) : val_main_v1 (F := F) i = fill := by
  rw [val_main_v1_apply, val_main_cst_apply]

/-- The first band at channel `t` below the last: the next channel of the reshaped input. -/
theorem band1_next (x0 : (⟨S64x512x56x56, .f32⟩ : BufTy).Contents (Elt F)) (b : Fin 64) (t : Fin 512) (q : Fin 392)
    (ht : t.val + 1 < 512) :
    val_main_v3 (F := F) x0 (ix3 b t q)
      = val_main_v0 (F := F) x0 (ix3 b ⟨t.val + 1, ht⟩ ⟨q.val, by have := q.isLt; omega⟩) := by
  unfold val_main_v3
  refine (concatenate_pair_apply_left (s₁ := S64x511x392) (s₂ := S64x1x392) (1 : Fin 3) _ _ concatenates_S64x511x392_S64x1x392_S64x512x392_d1 (ix3 b t q) rfl
    (ix3 b (⟨t.val, by omega⟩ : Fin 511) q) (fun a => match a with
      | ⟨0, _⟩ => rfl
      | ⟨1, _⟩ => rfl
      | ⟨2, _⟩ => rfl)).trans ?_
  rw [val_main_v2_apply]
  refine congrArg _ (funext fun a => Fin.ext ?_)
  match a with
  | ⟨0, _⟩ => rfl
  | ⟨1, _⟩ => show 1 + t.val = t.val + 1; omega
  | ⟨2, _⟩ => rfl

/-- The first band at the last channel: the fill value. -/
theorem band1_fill (x0 : (⟨S64x512x56x56, .f32⟩ : BufTy).Contents (Elt F)) (b : Fin 64) (t : Fin 512) (q : Fin 392)
    (ht : ¬ t.val + 1 < 512) :
    val_main_v3 (F := F) x0 (ix3 b t q) = fill := by
  unfold val_main_v3
  have htv : t.val = 511 := by have := t.isLt; omega
  refine (concatenate_pair_apply_right (s₁ := S64x511x392) (s₂ := S64x1x392) (1 : Fin 3) _ _ concatenates_S64x511x392_S64x1x392_S64x512x392_d1 (ix3 b t q) rfl rfl
    (ix3 b (0 : Fin 1) q) (fun a ha => match a with
      | ⟨0, _⟩ => rfl
      | ⟨1, _⟩ => absurd rfl ha
      | ⟨2, _⟩ => rfl) (by show 0 + 511 = t.val; omega)).trans ?_
  exact zeros_apply _

/-- The second band at channel `t` above the first: the previous channel of the reshaped input, 392 positions on. -/
theorem band2_prev (x0 : (⟨S64x512x56x56, .f32⟩ : BufTy).Contents (Elt F)) (b : Fin 64) (t : Fin 512) (q : Fin 392)
    (ht : 0 < t.val) :
    val_main_v5 (F := F) x0 (ix3 b t q)
      = val_main_v0 (F := F) x0 (ix3 b ⟨t.val - 1, by have := t.isLt; omega⟩ ⟨392 + q.val, by have := q.isLt; omega⟩) := by
  unfold val_main_v5
  refine (concatenate_pair_apply_right (s₁ := S64x1x392) (s₂ := S64x511x392) (1 : Fin 3) _ _ concatenates_S64x1x392_S64x511x392_S64x512x392_d1 (ix3 b t q) rfl rfl
    (ix3 b (⟨t.val - 1, by have := t.isLt; omega⟩ : Fin 511) q) (fun a ha => match a with
      | ⟨0, _⟩ => rfl
      | ⟨1, _⟩ => absurd rfl ha
      | ⟨2, _⟩ => rfl) (by show t.val - 1 + 1 = t.val; omega)).trans ?_
  rw [val_main_v4_apply]
  refine congrArg _ (funext fun a => Fin.ext ?_)
  match a with
  | ⟨0, _⟩ => rfl
  | ⟨1, _⟩ => rfl
  | ⟨2, _⟩ => rfl

/-- The second band at the first channel: the fill value. -/
theorem band2_fill (x0 : (⟨S64x512x56x56, .f32⟩ : BufTy).Contents (Elt F)) (b : Fin 64) (t : Fin 512) (q : Fin 392)
    (ht : ¬ 0 < t.val) :
    val_main_v5 (F := F) x0 (ix3 b t q) = fill := by
  unfold val_main_v5
  refine (concatenate_pair_apply_left (s₁ := S64x1x392) (s₂ := S64x511x392) (1 : Fin 3) _ _ concatenates_S64x1x392_S64x511x392_S64x512x392_d1 (ix3 b t q) rfl
    (ix3 b (0 : Fin 1) q) (fun a => match a with
      | ⟨0, _⟩ => rfl
      | ⟨1, _⟩ => by show 0 = t.val; omega
      | ⟨2, _⟩ => rfl)).trans ?_
  exact zeros_apply _

/-- The third band: the reshaped input 784 positions on. -/
theorem band3_keep (x0 : (⟨S64x512x56x56, .f32⟩ : BufTy).Contents (Elt F)) (b : Fin 64) (t : Fin 512) (q : Fin 2352) :
    val_main_v6 (F := F) x0 (ix3 b t q)
      = val_main_v0 (F := F) x0 (ix3 b t ⟨784 + q.val, by have := q.isLt; omega⟩) := by
  rw [val_main_v6_apply]
  refine congrArg _ (funext fun a => Fin.ext ?_)
  match a with
  | ⟨0, _⟩ => rfl
  | ⟨1, _⟩ => rfl
  | ⟨2, _⟩ => rfl

/-- The three bands joined along the position axis, read in the band that holds the position. -/
theorem joined_band1 (x0 : (⟨S64x512x56x56, .f32⟩ : BufTy).Contents (Elt F)) (b : Fin 64) (t : Fin 512) (p : Fin 3136)
    (hp : p.val < 392) :
    val_main_v7 (F := F) x0 (ix3 b t p) = val_main_v3 (F := F) x0 (ix3 b t ⟨p.val, hp⟩) := by
  unfold val_main_v7
  exact concatenate_apply_piece (t := S64x512x3136) (2 : Fin 3) [⟨S64x512x392, val_main_v3 (F := F) x0⟩, ⟨S64x512x392, val_main_v5 (F := F) x0⟩, ⟨S64x512x2352, val_main_v6 (F := F) x0⟩] concatenates_S64x512x392_S64x512x392_S64x512x2352_S64x512x3136_d2 (ix3 b t p)
    0 (by simp) S64x512x392 _ rfl rfl 0 rfl (ix3 b t (⟨p.val, hp⟩ : Fin 392)) (fun a ha => match a with
      | ⟨0, _⟩ => rfl
      | ⟨1, _⟩ => rfl
      | ⟨2, _⟩ => absurd rfl ha) (by show 0 + p.val = p.val; omega)

theorem joined_band2 (x0 : (⟨S64x512x56x56, .f32⟩ : BufTy).Contents (Elt F)) (b : Fin 64) (t : Fin 512) (p : Fin 3136)
    (hp : ¬ p.val < 392) (hp' : p.val < 784) :
    val_main_v7 (F := F) x0 (ix3 b t p) = val_main_v5 (F := F) x0 (ix3 b t ⟨p.val - 392, by omega⟩) := by
  unfold val_main_v7
  exact concatenate_apply_piece (t := S64x512x3136) (2 : Fin 3) [⟨S64x512x392, val_main_v3 (F := F) x0⟩, ⟨S64x512x392, val_main_v5 (F := F) x0⟩, ⟨S64x512x2352, val_main_v6 (F := F) x0⟩] concatenates_S64x512x392_S64x512x392_S64x512x2352_S64x512x3136_d2 (ix3 b t p)
    1 (by simp) S64x512x392 _ rfl rfl 392 rfl (ix3 b t (⟨p.val - 392, by omega⟩ : Fin 392)) (fun a ha => match a with
      | ⟨0, _⟩ => rfl
      | ⟨1, _⟩ => rfl
      | ⟨2, _⟩ => absurd rfl ha) (by show 392 + (p.val - 392) = p.val; omega)

theorem joined_band3 (x0 : (⟨S64x512x56x56, .f32⟩ : BufTy).Contents (Elt F)) (b : Fin 64) (t : Fin 512) (p : Fin 3136)
    (hp : ¬ p.val < 784) :
    val_main_v7 (F := F) x0 (ix3 b t p)
      = val_main_v6 (F := F) x0 (ix3 b t ⟨p.val - 784, by have := p.isLt; omega⟩) := by
  unfold val_main_v7
  exact concatenate_apply_piece (t := S64x512x3136) (2 : Fin 3) [⟨S64x512x392, val_main_v3 (F := F) x0⟩, ⟨S64x512x392, val_main_v5 (F := F) x0⟩, ⟨S64x512x2352, val_main_v6 (F := F) x0⟩] concatenates_S64x512x392_S64x512x392_S64x512x2352_S64x512x3136_d2 (ix3 b t p)
    2 (by simp) S64x512x2352 _ rfl rfl 784 rfl (ix3 b t (⟨p.val - 784, by have := p.isLt; omega⟩ : Fin 2352)) (fun a ha => match a with
      | ⟨0, _⟩ => rfl
      | ⟨1, _⟩ => rfl
      | ⟨2, _⟩ => absurd rfl ha) (by show 784 + (p.val - 784) = p.val; omega)

/-- The joined array is the channel shift of the reshaped input. -/
theorem joined_eq (x0 : (⟨S64x512x56x56, .f32⟩ : BufTy).Contents (Elt F)) :
    val_main_v7 (F := F) x0 = Cert.ChannelShift.onArray (fill (F := F)) (val_main_v0 (F := F) x0) := by
  funext i
  obtain ⟨b, t, p, rfl⟩ : ∃ (b : Fin 64) (t : Fin 512) (p : Fin 3136), i = ix3 b t p := ⟨i 0, i 1, i 2, eq_ix3 i⟩
  show _ = Cert.ChannelShift.rule fill (fun t' p' => val_main_v0 (F := F) x0 (ix3 b t' p')) t p
  by_cases hp : p.val < 392
  · rw [joined_band1 x0 b t p hp]
    by_cases ht : t.val + 1 < 512
    · rw [Cert.ChannelShift.rule_next _ _ t p hp ht, band1_next x0 b t _ ht]
    · rw [Cert.ChannelShift.rule_next_fill _ _ t p hp ht, band1_fill x0 b t _ ht]
  · by_cases hp' : p.val < 784
    · rw [joined_band2 x0 b t p hp hp']
      by_cases ht : 0 < t.val
      · rw [Cert.ChannelShift.rule_prev _ _ t p hp hp' ht, band2_prev x0 b t _ ht]
        refine congrArg _ (congrArg _ (Fin.ext ?_))
        show 392 + (p.val - 392) = p.val; omega
      · rw [Cert.ChannelShift.rule_prev_fill _ _ t p hp hp' ht, band2_fill x0 b t _ ht]
    · rw [joined_band3 x0 b t p hp', Cert.ChannelShift.rule_keep _ _ t p hp', band3_keep]
      refine congrArg _ (congrArg _ (Fin.ext ?_))
      show 784 + (p.val - 784) = p.val; omega

/-- So the reference's result is the reshape back of the channel shift of the reshaped input. -/
theorem result_eq (x0 : (⟨S64x512x56x56, .f32⟩ : BufTy).Contents (Elt F)) :
    val_main_v8 (F := F) x0
      = shapeCast S64x512x56x56 (Cert.ChannelShift.onArray (fill (F := F))
          (shapeCast S64x512x3136 x0 shapeCasts_S64x512x56x56_S64x512x3136)) shapeCasts_S64x512x3136_S64x512x56x56 := by
  unfold val_main_v8
  rw [joined_eq]
  rfl

end Cert.ReferenceIdeal.RefShift

end
-- ==== Proof.lean ====
/-
  The channel-shift kernel against its reference, over the extended reals.

  Both programs read the input as 64 images of 512 channels over 3136 = 56·56 flattened positions and produce, at
  channel `t` and position `p` of each image: for `p < 392` the value of channel `t + 1` (zero at the last channel), for
  `392 ≤ p < 784` the value of channel `t - 1` (zero at the first channel), and for `p ≥ 784` the value itself; the result
  is reshaped back to four axes. No arithmetic is done on the values, so the two results are equal element by element
  for every input, finite or not: the precondition is not used.

  The kernel computes this one image per grid point: its body stores three bands of the output block, each a slice of
  the input block joined with a row of zeros or copied, and the blocks written back tile the output array
  (Proof/Payloads, Proof/Block, Proof/Array, Proof/KernelRun). The reference joins the same three bands over all images
  at once (Proof/RefShift). Both are the reshape of one function, the shift rule of Proof/Shift, of the reshaped input.
  The kernel's idealization rewrote no operation, so that conjunct is trivial; the three frames are the generated ones
  and, for the reference, its run with the result dropped.
-/
import proofs.«145419_j80075370267210_2_alg».proof.Defs
import proofs.«145419_j80075370267210_2_alg».proof.Proof.Gen.Kernel
import proofs.«145419_j80075370267210_2_alg».proof.Proof.Gen.Kernel.Skeleton
import proofs.«145419_j80075370267210_2_alg».proof.Proof.Gen.Kernel.Launch
import proofs.«145419_j80075370267210_2_alg».proof.Proof.Gen.Kernel.Points
import proofs.«145419_j80075370267210_2_alg».proof.Proof.Gen.Kernel.Frame
import proofs.«145419_j80075370267210_2_alg».proof.Proof.Gen.KernelIdeal
import proofs.«145419_j80075370267210_2_alg».proof.Proof.Gen.KernelIdeal.Skeleton
import proofs.«145419_j80075370267210_2_alg».proof.Proof.Gen.KernelIdeal.Launch
import proofs.«145419_j80075370267210_2_alg».proof.Proof.Gen.KernelIdeal.Points
import proofs.«145419_j80075370267210_2_alg».proof.Proof.Gen.KernelIdeal.Frame
import proofs.«145419_j80075370267210_2_alg».proof.Proof.Gen.ReferenceIdeal
import proofs.«145419_j80075370267210_2_alg».proof.Proof.Gen.Pre_finite_inputs
import proofs.«145419_j80075370267210_2_alg».proof.Proof.Gen.ReferenceIdeal.Run
import proofs.«145419_j80075370267210_2_alg».proof.Proof.Gen.ReferenceIdeal.Read
import proofs.«145419_j80075370267210_2_alg».proof.Proof.KernelRun
import proofs.«145419_j80075370267210_2_alg».proof.Proof.RefShift
import Idealize.ShloMosaic.Adequacy
import Idealize.ShloMosaic.Init

noncomputable section

namespace Cert.Proof

open Idealize.ShloMosaic Idealize.SL.Sem

/-- The kernel as printed runs to the end and leaves its argument as it was. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs to the end and leaves its argument as it was: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From arguments that agree, both programs end with the reshape back of the channel shift of the reshaped argument:
    the kernel by its run read block by block, the reference by its three joined bands read at an index. The two
    programs spell the fill value's zero word and the shapes in their own vocabularies; they are the same terms. -/
theorem algebraic : Cert.algebraic_KernelIdeal_ReferenceIdeal := by
  intro m ρ m' ρ' _ hagree
  refine ⟨fun c => Cert.KernelIdeal.Whole.result (F := Ideal)
      (m ((c.tc : Thread Cert.KernelIdeal.nD Cert.KernelIdeal.τ).loc Cert.KernelIdeal.main_arg0)),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefShift.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
